-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x201x64 : Shape := ⟨3, ![8192, 201, 64]⟩
abbrev S64x64 : Shape := ⟨2, ![64, 64]⟩
abbrev S64 : Shape := ⟨1, ![64]⟩
abbrev S_ : Shape := ⟨0, ![]⟩

class Facts : Prop where
  bcast_S_S8192x201x64 : S_.BroadcastsInDim S8192x201x64 (![] : Fin 0 → Fin S8192x201x64.rank)
  reducesTo_S8192x201x64_S_d0_1_2 : S8192x201x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x201x64 .f32) (main_arg1 : FVec F S64x64 .f32) (main_arg2 : FVec F S64 .f32) (main_arg3 : FVec F S64x64 .f32) (main_arg4 : FVec F S64 .f32) : IVec S_ 1 :=
  let main_v0 : FVec F S8192x201x64 .f32 := Host.absf main_arg0
  let main_cst : FVec F S_ .f32 := constant S_ .f32 0x7F800000#32
  let main_v1 : FVec F S8192x201x64 .f32 := broadcastInDim S8192x201x64 ![] bcast_S_S8192x201x64 main_cst
  let main_v2 : IVec S8192x201x64 1 := cmpf .olt main_v0 main_v1
  let main_c : IVec S_ 1 := constantI S_ 1 1#1
  let main_v3 : IVec S_ 1 := (fun x v => Host.reduce IntOp.andi x v reducesTo_S8192x201x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x201x64 : Shape := ⟨3, ![8192, 201, 64]⟩
abbrev S64x64 : Shape := ⟨2, ![64, 64]⟩
abbrev S64 : Shape := ⟨1, ![64]⟩
abbrev S1x1x64 : Shape := ⟨3, ![1, 1, 64]⟩
abbrev S8192x200x64 : Shape := ⟨3, ![8192, 200, 64]⟩
abbrev S32x201x64 : Shape := ⟨3, ![32, 201, 64]⟩
abbrev S32x200x64 : Shape := ⟨3, ![32, 200, 64]⟩
abbrev S32x1x64 : Shape := ⟨3, ![32, 1, 64]⟩
abbrev S32x64 : Shape := ⟨2, ![32, 64]⟩
abbrev S6400x64 : Shape := ⟨2, ![6400, 64]⟩

abbrev nBuf : Space → Nat
  | .hbm => 12
  | .vmem => 8
  | .smem => 0
  | _ => 0

abbrev bufTy : (tb : Table) → Fin (tcTables nBuf tb) → BufTy
  | .hbm, ⟨0, _⟩ => ⟨S8192x201x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .bf16⟩
  | .hbm, ⟨7, _⟩ => ⟨S64x64, .f32⟩
  | .hbm, ⟨8, _⟩ => ⟨S64x64, .bf16⟩
  | .hbm, ⟨9, _⟩ => ⟨S1x1x64, .f32⟩
  | .hbm, ⟨10, _⟩ => ⟨S1x1x64, .f32⟩
  | .hbm, ⟨11, _⟩ => ⟨S8192x200x64, .f32⟩
  | .local _ .vmem, ⟨0, _⟩ => ⟨S32x201x64, .f32⟩
  | .local _ .vmem, ⟨1, _⟩ => ⟨S32x201x64, .f32⟩
  | .local _ .vmem, ⟨2, _⟩ => ⟨S64x64, .bf16⟩
  | .local _ .vmem, ⟨3, _⟩ => ⟨S1x1x64, .f32⟩
  | .local _ .vmem, ⟨4, _⟩ => ⟨S64x64, .bf16⟩
  | .local _ .vmem, ⟨5, _⟩ => ⟨S1x1x64, .f32⟩
  | .local _ .vmem, ⟨6, _⟩ => ⟨S32x200x64, .f32⟩
  | .local _ .vmem, ⟨7, _⟩ => ⟨S32x200x64, .f32⟩
  | _, _ => ⟨S8192x201x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x201x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x200x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x64_S64x64_1_0 : S64x64.Transposes [1, 0] S64x64
  bitsLt_bf16_f32 : FTy.bits .bf16 < FTy.bits .f32
  shapeCasts_S64_S1x1x64 : S64.ShapeCasts S1x1x64
  inb_S32x201x64_S32x201x64_0_0_0 : ∀ a, (![0, 0, 0] : Fin 3 → Nat) a + S32x201x64.size a ≤ S32x201x64.size a
  h_S32x201x64 : 0 < S32x201x64.numel
  slices_S32x201x64_o0_0_0_S32x1x64 : S32x201x64.Slices ![0, 0, 0] S32x1x64
  slices_S32x201x64_o0_1_0_S32x200x64 : S32x201x64.Slices ![0, 1, 0] S32x200x64
  broadcasts_S32x1x64_S32x200x64 : S32x1x64.Broadcasts S32x200x64
  reduces_S32x200x64_S32x64 : S32x200x64.Reduces [1] S32x64
  shapeCasts_S32x64_S32x1x64 : S32x64.ShapeCasts S32x1x64
  shapeCasts_S32x200x64_S6400x64 : S32x200x64.ShapeCasts S6400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S6400x64_S32x200x64 : S6400x64.ShapeCasts S32x200x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S32x200x64 : S1x1x64.Broadcasts S32x200x64
  inb_S32x200x64_S32x200x64_0_0_0 : ∀ a, (![0, 0, 0] : Fin 3 → Nat) a + S32x200x64.size a ≤ S32x200x64.size a
  h_S32x200x64 : 0 < S32x200x64.numel
  dot_S6400x64_S64x64_S6400x64_1_0_0_1_n_n_wf : DotDims.WF S6400x64 S64x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x201x64.size a ≤ S8192x201x64.size a
  hwx0_0 : ∀ i : grid0.Coords, EltTy.bits .f32 = 32 ∨ (Rect.block (s := S8192x201x64) S32x201x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S1x1x64.size a
  hwx0_2 : ∀ i : grid0.Coords, EltTy.bits .f32 = 32 ∨ (Rect.block (s := S1x1x64) S1x1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S1x1x64.size a
  hwx0_4 : ∀ i : grid0.Coords, EltTy.bits .f32 = 32 ∨ (Rect.block (s := S1x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x200x64.size a ≤ S8192x200x64.size a
  hwx0_5 : ∀ i : grid0.Coords, EltTy.bits .f32 = 32 ∨ (Rect.block (s := S8192x200x64) S32x200x64.size (cc0_transform_5 i) (hinb0_5 i)).WholeWords (EltTy.packing .f32)

variable [Facts₀]

def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf

abbrev win0_0 : Pipeline.Window sig grid0 :=
  Pipeline.Window.ofSpec (Memref.whole main_arg0) S32x201x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x200x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x201x64 : Shape := ⟨3, ![8192, 201, 64]⟩
abbrev S64x64 : Shape := ⟨2, ![64, 64]⟩
abbrev S64 : Shape := ⟨1, ![64]⟩
abbrev S8192x1x64 : Shape := ⟨3, ![8192, 1, 64]⟩
abbrev S8192x200x64 : Shape := ⟨3, ![8192, 200, 64]⟩
abbrev S_ : Shape := ⟨0, ![]⟩
abbrev S8192x64 : Shape := ⟨2, ![8192, 64]⟩
abbrev S1x1x64 : Shape := ⟨3, ![1, 1, 64]⟩

abbrev nBuf : Space → Nat
  | .hbm => 34
  | .vmem => 0
  | .smem => 0
  | _ => 0

abbrev bufTy : (tb : Table) → Fin (tcTables nBuf tb) → BufTy
  | .hbm, ⟨0, _⟩ => ⟨S8192x201x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S8192x1x64, .f32⟩
  | .hbm, ⟨6, _⟩ => ⟨S8192x200x64, .f32⟩
  | .hbm, ⟨7, _⟩ => ⟨S8192x200x64, .f32⟩
  | .hbm, ⟨8, _⟩ => ⟨S8192x200x64, .f32⟩
  | .hbm, ⟨9, _⟩ => ⟨S_, .f32⟩
  | .hbm, ⟨10, _⟩ => ⟨S8192x64, .f32⟩
  | .hbm, ⟨11, _⟩ => ⟨S8192x1x64, .f32⟩
  | .hbm, ⟨12, _⟩ => ⟨S_, .f32⟩
  | .hbm, ⟨13, _⟩ => ⟨S8192x1x64, .f32⟩
  | .hbm, ⟨14, _⟩ => ⟨S8192x1x64, .f32⟩
  | .hbm, ⟨15, _⟩ => ⟨S8192x200x64, .f32⟩
  | .hbm, ⟨16, _⟩ => ⟨S8192x200x64, .f32⟩
  | .hbm, ⟨17, _⟩ => ⟨S8192x200x64, .f32⟩
  | .hbm, ⟨18, _⟩ => ⟨S1x1x64, .f32⟩
  | .hbm, ⟨19, _⟩ => ⟨S8192x200x64, .f32⟩
  | .hbm, ⟨20, _⟩ => ⟨S8192x200x64, .f32⟩
  | .hbm, ⟨21, _⟩ => ⟨S8192x200x64, .f32⟩
  | .hbm, ⟨22, _⟩ => ⟨S8192x200x64, .f32⟩
  | .hbm, ⟨23, _⟩ => ⟨S1x1x64, .f32⟩
  | .hbm, ⟨24, _⟩ => ⟨S8192x200x64, .f32⟩
  | .hbm, ⟨25, _⟩ => ⟨S8192x200x64, .f32⟩
  | .hbm, ⟨26, _⟩ => ⟨S8192x200x64, .f32⟩
  | .hbm, ⟨27, _⟩ => ⟨S_, .f32⟩
  | .hbm, ⟨28, _⟩ => ⟨S8192x200x64, .f32⟩
  | .hbm, ⟨29, _⟩ => ⟨S8192x200x64, .i1⟩
  | .hbm, ⟨30, _⟩ => ⟨S_, .f32⟩
  | .hbm, ⟨31, _⟩ => ⟨S8192x200x64, .f32⟩
  | .hbm, ⟨32, _⟩ => ⟨S8192x200x64, .f32⟩
  | .hbm, ⟨33, _⟩ => ⟨S8192x200x64, .f32⟩
  | _, _ => ⟨S8192x201x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S8192x201x64_S8192x1x64_0_0_0 : S8192x201x64.Slices ![0, 0, 0] S8192x1x64
  slices_S8192x201x64_S8192x200x64_0_1_0 : S8192x201x64.Slices ![0, 1, 0] S8192x200x64
  bcast_S8192x1x64_S8192x200x64_0_1_2 : S8192x1x64.BroadcastsInDim S8192x200x64 (![0, 1, 2] : Fin 3 → Fin S8192x200x64.rank)
  reducesTo_S8192x200x64_S8192x64_d1 : S8192x200x64.ReducesTo [1] S8192x64
  h_S_ : 0 < S_.numel
  bcast_S8192x64_S8192x1x64_0_2 : S8192x64.BroadcastsInDim S8192x1x64 (![0, 2] : Fin 2 → Fin S8192x1x64.rank)
  bcast_S_S8192x1x64 : S_.BroadcastsInDim S8192x1x64 (![] : Fin 0 → Fin S8192x1x64.rank)
  bcast_S64_S1x1x64_2 : S64.BroadcastsInDim S1x1x64 (![2] : Fin 1 → Fin S1x1x64.rank)
  bcast_S1x1x64_S8192x200x64_0_1_2 : S1x1x64.BroadcastsInDim S8192x200x64 (![0, 1, 2] : Fin 3 → Fin S8192x200x64.rank)
  bcast_S_S8192x200x64 : S_.BroadcastsInDim S8192x200x64 (![] : Fin 0 → Fin S8192x200x64.rank)
  dot_S8192x200x64_S64x64_S8192x200x64_2_1_01_0_n_n_wf : DotDims.WF S8192x200x64 S64x64 S8192x200x64 [2] [1] [0, 1] [0] [] []

variable [Facts₀]

def dot_S8192x200x64_S64x64_S8192x200x64_2_1_01_0_n_n : DotDims S8192x200x64 S64x64 S8192x200x64 where
  lhsContracting := [2]
  rhsContracting := [1]
  lhsNonContracting := [0, 1]
  rhsNonContracting := [0]
  lhsBatch := []
  rhsBatch := []
  wf := dot_S8192x200x64_S64x64_S8192x200x64_2_1_01_0_n_n_wf

class Facts : Prop extends Facts₀ where

variable [Facts]
-- ==== Proof.Interaction.lean ====
/-
  The layer that both programs compute, stated for ONE batch entry.

  A batch entry is a matrix `r` of 201 rows and 64 features: row 0 is the user's embedding, rows 1 … 200 are the
  items'. With two 64 × 64 weight matrices `w₁`, `w₂` (indexed output feature first, as a linear layer stores them)
  and two biases `b₁`, `b₂`, the output at item `n` and feature `e` is

      leaky ( r₀ₑ · iₙₑ  +  Σₖ (iₙₖ + (Σⱼ iₙⱼ · μⱼ · w₁ₖⱼ) + b₁ₖ) · w₂ₑₖ  +  b₂ₑ )

  where `iₙ` is item row `n`, `μⱼ = (Σₙ iₙⱼ) / 200` the items' mean at feature `j`, and `leaky x` is `x` where
  `x ≥ 0` and `slope · x` elsewhere. Everything is over the extended reals; the two float words that occur (the item
  count 200 and the slope) are kept as the words the programs write, read at the ideal instance: the same word stands on
  both sides, so its value is never needed.
-/
import Idealize.ShloMosaic.PureOps.Ideal
import Idealize.ShloMosaic.Lib.ValueIdx

noncomputable section

open scoped BigOperators

namespace Cert.Interaction

open Idealize.ShloMosaic

/-- The user's row of a batch entry. -/
abbrev user : Fin 201 := ⟨0, by decide⟩

/-- Item `n`'s row of a batch entry: row `1 + n`. -/
abbrev item (n : Fin 200) : Fin 201 := ⟨1 + n.val, by have := n.isLt; omega⟩

/-- The number of items, as the float word both programs divide by. -/
def count : EReal := Ideal.ofBits .f32 0x43480000#32

/-- The slope of the negative branch, as the float word both programs multiply by. -/
def slope : EReal := Ideal.ofBits .f32 0x3C23D70A#32

/-- The float word for zero, which the final comparison is against. -/
def origin : EReal := Ideal.ofBits .f32 0x00000000#32

variable (r : Fin 201 → Fin 64 → EReal) (w₁ : Fin 64 → Fin 64 → EReal) (b₁ : Fin 64 → EReal)
  (w₂ : Fin 64 → Fin 64 → EReal) (b₂ : Fin 64 → EReal)

/-- The items' mean at feature `d`: their sum over the 200 item rows, divided by the count. -/
def mean (d : Fin 64) : EReal := Ideal.div (∑ k : Fin 200, r (item k) d) count

/-- Item `n` scaled feature by feature by the items' mean. -/
def scaled (n : Fin 200) (d : Fin 64) : EReal := r (item n) d * mean r d

/-- The first linear layer applied to the scaled item. -/
def first (n : Fin 200) (e : Fin 64) : EReal := (∑ k : Fin 64, scaled r n k * w₁ e k) + b₁ e

/-- The item plus its first-layer image: what the second layer is applied to. -/
def mixed (n : Fin 200) (d : Fin 64) : EReal := r (item n) d + first r w₁ b₁ n d

/-- The second linear layer. -/
def second (n : Fin 200) (e : Fin 64) : EReal := (∑ k : Fin 64, mixed r w₁ b₁ n k * w₂ e k) + b₂ e

/-- The user–item product plus the second layer's output: the value before the activation. -/
def pre (n : Fin 200) (e : Fin 64) : EReal := r user e * r (item n) e + second r w₁ b₁ w₂ b₂ n e

/-- The layer's output: the leaky rectifier of `pre`. -/
def out (n : Fin 200) (e : Fin 64) : EReal :=
  Scalar.select (Ideal.cmp .oge (pre r w₁ b₁ w₂ b₂ n e) origin) (pre r w₁ b₁ w₂ b₂ n e) (slope * pre r w₁ b₁ w₂ b₂ n e)

/-- The layer is a function of its five data: equal data give equal outputs. -/
theorem out_congr {r r' : Fin 201 → Fin 64 → EReal} {w₁ w₁' : Fin 64 → Fin 64 → EReal} {b₁ b₁' : Fin 64 → EReal}
    {w₂ w₂' : Fin 64 → Fin 64 → EReal} {b₂ b₂' : Fin 64 → EReal} (hr : ∀ j d, r j d = r' j d)
    (hw₁ : ∀ o k, w₁ o k = w₁' o k) (hb₁ : ∀ o, b₁ o = b₁' o) (hw₂ : ∀ o k, w₂ o k = w₂' o k) (hb₂ : ∀ o, b₂ o = b₂' o)
    (n : Fin 200) (e : Fin 64) : out r w₁ b₁ w₂ b₂ n e = out r' w₁' b₁' w₂' b₂' n e := by
  obtain rfl : r = r' := funext fun j => funext fun d => hr j d
  obtain rfl : w₁ = w₁' := funext fun o => funext fun k => hw₁ o k
  obtain rfl : b₁ = b₁' := funext hb₁
  obtain rfl : w₂ = w₂' := funext fun o => funext fun k => hw₂ o k
  obtain rfl : b₂ = b₂' := funext hb₂
  rfl

/-! ## Over whole arrays -/

open Idealize.ShloMosaic.ValueIdx

/-- The layer at batch entry `B`, item `n`, feature `e`, of the embeddings `a₀` (8192 entries of 201 rows), the weights
    `a₁`, `a₃` (output feature first) and the biases `a₂`, `a₄`. -/
def layerAt (a₀ : (⟨3, ![8192, 201, 64]⟩ : Shape).Idx → EReal) (a₁ : (⟨2, ![64, 64]⟩ : Shape).Idx → EReal)
    (a₂ : (⟨1, ![64]⟩ : Shape).Idx → EReal) (a₃ : (⟨2, ![64, 64]⟩ : Shape).Idx → EReal)
    (a₄ : (⟨1, ![64]⟩ : Shape).Idx → EReal) (B : Fin 8192) (n : Fin 200) (e : Fin 64) : EReal :=
  out (fun j d => a₀ (ix3 B j d)) (fun o k => a₁ (ix2 o k)) (fun o => a₂ (ix1 o)) (fun o k => a₃ (ix2 o k))
    (fun o => a₄ (ix1 o)) n e

/-- The whole output array: the layer at every (entry, item, feature). -/
def layer (a₀ : (⟨3, ![8192, 201, 64]⟩ : Shape).Idx → EReal) (a₁ : (⟨2, ![64, 64]⟩ : Shape).Idx → EReal)
    (a₂ : (⟨1, ![64]⟩ : Shape).Idx → EReal) (a₃ : (⟨2, ![64, 64]⟩ : Shape).Idx → EReal)
    (a₄ : (⟨1, ![64]⟩ : Shape).Idx → EReal) : (⟨3, ![8192, 200, 64]⟩ : Shape).Idx → EReal :=
  fun i => layerAt a₀ a₁ a₂ a₃ a₄ (i 0) (i 1) (i 2)

end Cert.Interaction

end
-- ==== Proof.BodyValue.lean ====
/-
  The kernel body's stored value, read at one index of the output block, is the layer of `Interaction.lean` applied to
  the corresponding batch entry of the input block.

  The body works on a block of 32 batch entries. It slices the user row and the 200 item rows, sums the items over the
  item axis (a lane reduction into a zero accumulator), divides by the count, scales the items, FLATTENS the (entry, item)
  pair into one axis of 32 · 200 = 6400 rows, multiplies by a 64 × 64 weight block held with the CONTRACTED feature first
  (the host transposed it), un-flattens, adds the bias held as a 1 × 1 × 64 block, and repeats with the second weight.
  The lemmas below read each layout operation at explicit coordinates (entry `b`, item `n`, feature `d` / `e`):
  row (b, n) of the block is row `200 · b + n` of its flattening, and a matrix product into the zero accumulator is the
  plain sum over the contracted feature of the products. With them the payload at (b, n, e) is the layer's output for the
  entry whose rows are the block's rows at `b`, with the weight read at (contracted, output) and the bias at (0, 0, e).
-/
import proofs.«158257_j12910671692355_1_alg».proof.Proof.Gen.KernelIdeal.Skeleton
import proofs.«158257_j12910671692355_1_alg».proof.Proof.Interaction
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.Interaction

/-- Row (b, n) of a block of 32 entries × 200 items, among the 6400 rows of the block's flattening. -/
abbrev flat (b : Fin 32) (n : Fin 200) : Fin 6400 := ⟨b.val * 200 + n.val, by have := b.isLt; have := n.isLt; omega⟩

/-! ## Layout operations at coordinates -/

/-- The item rows of a block: row `n` of the slice is row `1 + n` of the block. -/
theorem items_apply (v0 : S32x201x64.Idx → EReal) (h : S32x201x64.Slices ![0, 1, 0] S32x200x64)
    (b : Fin 32) (n : Fin 200) (d : Fin 64) :
    extractStridedSlice S32x200x64 ![0, 1, 0] v0 h (ix3 b n d) = v0 (ix3 b (item n) d) :=
  slice3_axis1_apply 1 v0 h b n d (item n) rfl

/-- The user row of a block, broadcast over the items: row `0` of the block, whatever the item. -/
theorem user_apply (v0 : S32x201x64.Idx → EReal) (h : S32x201x64.Slices ![0, 0, 0] S32x1x64)
    (hb : S32x1x64.Broadcasts S32x200x64) (b : Fin 32) (n : Fin 200) (d : Fin 64) :
    broadcastTo S32x200x64 (extractStridedSlice S32x1x64 ![0, 0, 0] v0 h) hb (ix3 b n d) = v0 (ix3 b user d) := by
  refine (broadcastTo_apply _ hb (ix3 b n d) (ix3 b (0 : Fin 1) d) fun a => ?_).trans
    (slice3_axis1_apply 0 v0 h b (0 : Fin 1) d user rfl)
  match a with
  | ⟨0, _⟩ => show b.val = if (32 : Nat) = 1 then 0 else b.val; rw [if_neg (by decide)]
  | ⟨1, _⟩ => show 0 = if (1 : Nat) = 1 then 0 else n.val; rw [if_pos rfl]
  | ⟨2, _⟩ => show d.val = if (64 : Nat) = 1 then 0 else d.val; rw [if_neg (by decide)]

/-- The lane reduction over the item axis into the zero accumulator is the sum over the items. -/
theorem sum_apply (v2 : FVec Ideal S32x200x64 .f32) (h : S32x200x64.Reduces [1] S32x64)
    (hφ : FTy.f32 = FTy.f32 ∨ FTy.f32 = FTy.bf16) (hacc : (0x00000000#32 : BitVec 32) = 0x00000000#32)
    (b : Fin 32) (d : Fin 64) :
    multiReduction .add [1] S32x64 v2 0x00000000#32 h hφ hacc (ix2 b d) = ∑ k : Fin 200, v2 (ix3 b k d) := by
  refine (Ideal.multiReduction_add_single v2 0x00000000#32 h hφ hacc (ix2 b d)).trans ?_
  refine Finset.sum_congr rfl fun k _ => congrArg v2 (funext fun a => Fin.ext ?_)
  match a with
  | ⟨0, _⟩ => rfl
  | ⟨1, _⟩ => rfl
  | ⟨2, _⟩ => rfl

/-- The same as a function of the reduced index (entry, feature). -/
theorem sum_fun (v2 : FVec Ideal S32x200x64 .f32) (h : S32x200x64.Reduces [1] S32x64)
    (hφ : FTy.f32 = FTy.f32 ∨ FTy.f32 = FTy.bf16) (hacc : (0x00000000#32 : BitVec 32) = 0x00000000#32) :
    multiReduction .add [1] S32x64 v2 0x00000000#32 h hφ hacc = fun j => ∑ k : Fin 200, v2 (ix3 (j 0) k (j 1)) := by
  funext j
  obtain ⟨b, d, rfl⟩ : ∃ (b : Fin 32) (d : Fin 64), j = ix2 b d := ⟨j 0, j 1, eq_ix2 j⟩
  exact sum_apply v2 h hφ hacc b d

/-- A per-entry, per-feature value given a unit item axis, divided by a splat scalar and broadcast over the items. -/
theorem column_apply (v5 : FVec Ideal S32x64 .f32) (c : EReal) (hc : S32x64.ShapeCasts S32x1x64)
    (hb : S32x1x64.Broadcasts S32x200x64) (b : Fin 32) (n : Fin 200) (d : Fin 64) :
    broadcastTo S32x200x64 (divf (shapeCast S32x1x64 v5 hc) (broadcast (α := Ideal .f32) S32x1x64 c)) hb (ix3 b n d)
      = Ideal.div (v5 (ix2 b d)) c := by
  refine (broadcastTo_apply _ hb (ix3 b n d) (ix3 b (0 : Fin 1) d) fun a => ?_).trans ?_
  · match a with
    | ⟨0, _⟩ => show b.val = if (32 : Nat) = 1 then 0 else b.val; rw [if_neg (by decide)]
    | ⟨1, _⟩ => show 0 = if (1 : Nat) = 1 then 0 else n.val; rw [if_pos rfl]
    | ⟨2, _⟩ => show d.val = if (64 : Nat) = 1 then 0 else d.val; rw [if_neg (by decide)]
  · show Ideal.div (shapeCast S32x1x64 v5 hc (ix3 b (0 : Fin 1) d)) c = _
    refine congrArg (Ideal.div · c) (shapeCast_apply v5 hc _ (ix2 b d) ?_)
    rw [Shape.rowMajor_val_two, Shape.rowMajor_val_three]
    show b.val * 64 + d.val = (b.val * 1 + 0) * 64 + d.val
    omega

/-- Flattening (entry, item) into one axis: row `200 · b + n` of the flattening is row (b, n). -/
theorem flatten_apply {α : Type} (v : S32x200x64.Idx → α) (hc : S32x200x64.ShapeCasts S6400x64)
    (b : Fin 32) (n : Fin 200) (k : Fin 64) :
    shapeCast S6400x64 v hc (ix2 (flat b n) k) = v (ix3 b n k) := by
  refine shapeCast_apply v hc _ (ix3 b n k) ?_
  rw [Shape.rowMajor_val_two, Shape.rowMajor_val_three]
  rfl

/-- Un-flattening: row (b, n) is row `200 · b + n` of the flat matrix. -/
theorem unflatten_apply {α : Type} (v : S6400x64.Idx → α) (hc : S6400x64.ShapeCasts S32x200x64)
    (b : Fin 32) (n : Fin 200) (e : Fin 64) :
    shapeCast S32x200x64 v hc (ix3 b n e) = v (ix2 (flat b n) e) := by
  refine shapeCast_apply v hc _ (ix2 (flat b n) e) ?_
  rw [Shape.rowMajor_val_two, Shape.rowMajor_val_three]
  rfl

/-- A 1 × 1 × 64 block broadcast over entries and items reads its one row. -/
theorem bias_apply (v : S1x1x64.Idx → EReal) (hb : S1x1x64.Broadcasts S32x200x64)
    (b : Fin 32) (n : Fin 200) (e : Fin 64) :
    broadcastTo S32x200x64 v hb (ix3 b n e) = v (ix3 (0 : Fin 1) (0 : Fin 1) e) := by
  refine broadcastTo_apply v hb (ix3 b n e) (ix3 (0 : Fin 1) (0 : Fin 1) e) fun a => ?_
  match a with
  | ⟨0, _⟩ => show 0 = if (1 : Nat) = 1 then 0 else b.val; rw [if_pos rfl]
  | ⟨1, _⟩ => show 0 = if (1 : Nat) = 1 then 0 else n.val; rw [if_pos rfl]
  | ⟨2, _⟩ => show e.val = if (64 : Nat) = 1 then 0 else e.val; rw [if_neg (by decide)]

/-! ## The matrix product at coordinates -/

theorem lhs_row (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide),
    dif_pos (show (0 : Fin S6400x64.rank) ∈ dot_S6400x64_S64x64_S6400x64_1_0_0_1_n_n.lhsNonContracting by decide)]
  rfl

theorem lhs_contracted (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q

theorem rhs_contracted (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q

theorem rhs_column (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide),
    dif_pos (show (1 : Fin S64x64.rank) ∈ dot_S6400x64_S64x64_S6400x64_1_0_0_1_n_n.rhsNonContracting by decide)]
  rfl

/-- The product of a 6400 × 64 matrix with a 64 × 64 one into the zero accumulator, at (p, e): the sum over the
    contracted feature `k` of left (p, k) times right (k, e). -/
theorem product_apply (l : FVec Ideal S6400x64 .bf16) (r : FVec Ideal S64x64 .bf16) (p : Fin 6400) (e : Fin 64) :
    matmul dot_S6400x64_S64x64_S6400x64_1_0_0_1_n_n none l r (constant S6400x64 .f32 0x00000000#32) (ix2 p e)
      = ∑ k : Fin 64, l (ix2 p k) * r (ix2 k e) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 p e) ((contrEquiv1 dot_S6400x64_S64x64_S6400x64_1_0_0_1_n_n 64 rfl rfl).symm k) = ix2 p k :=
    funext fun a => Fin.ext (by
      match a with
      | ⟨0, _⟩ => exact lhs_row _ _
      | ⟨1, _⟩ => exact (lhs_contracted _ _).trans hk)
  have er : dot_S6400x64_S64x64_S6400x64_1_0_0_1_n_n.rhsIdx (ix2 p e) ((contrEquiv1 dot_S6400x64_S64x64_S6400x64_1_0_0_1_n_n 64 rfl rfl).symm k) = ix2 k e :=
    funext fun a => Fin.ext (by
      match a with
      | ⟨0, _⟩ => exact (rhs_contracted _ _).trans hk
      | ⟨1, _⟩ => exact rhs_column _ _)
  rw [el, er]

/-! ## The payload -/

/-- THE BODY'S STORED VALUE at (b, n, e): the layer's output for the entry made of the block's rows at `b`, the weight
    blocks read at (contracted feature, output feature) and the bias blocks at (0, 0, feature). -/
theorem payload_apply (v0 : Vec Ideal S32x201x64 .f32) (v13 : Vec Ideal S64x64 .bf16) (v17 : Vec Ideal S1x1x64 .f32)
    (v24 : Vec Ideal S64x64 .bf16) (v28 : Vec Ideal S1x1x64 .f32) (b : Fin 32) (n : Fin 200) (e : Fin 64) :
    k0_pay1 (F := Ideal) v0 v13 v17 v24 v28 (ix3 b n e)
      = out (fun j d => v0 (ix3 b j d)) (fun o k => v13 (ix2 k o)) (fun o => v17 (ix3 (0 : Fin 1) (0 : Fin 1) o))
          (fun o k => v24 (ix2 k o)) (fun o => v28 (ix3 (0 : Fin 1) (0 : Fin 1) o)) n e := by
  unfold k0_pay1
  dsimp only
  rw [sum_fun]
  simp only [select_apply, cmpf_apply, mulf_apply, addf_apply, broadcast_apply, truncf_apply, shapeCast_self,
    unflatten_apply, product_apply, flatten_apply, user_apply, items_apply, column_apply, bias_apply]
  rfl

end Cert.KernelIdeal.BodyValue

end
-- ==== Proof.ArrayValue.lean ====
/-
  From blocks to the array: after the kernel's run the output array is the layer of `Interaction.lean` applied to the
  argument arrays, entry by entry.

  The grid has 256 points; point `t` works on batch entries `32 · t … 32 · t + 31`. Its embeddings block is those entries
  of the first argument; its two weight blocks are the WHOLE host-prepared matrices, which the host made by transposing the
  weight arguments (so the block at (contracted, output) is the argument at (output, contracted); the conversion to a
  narrower float format is the identity on extended reals); its two bias blocks are the bias arguments given two leading unit
  axes. So what point `t` writes back — the body's value of `BodyValue.lean` at each (entry b, item n, feature e) of the block —
  is the layer at (32 · t + b, n, e) of the arguments: block `t` of ONE whole-array function. Every index of the output array
  lies in the block of the point `(its entry) / 32`, so the array ends holding that function.
-/
import proofs.«158257_j12910671692355_1_alg».proof.Proof.Gen.KernelIdeal.Value
import proofs.«158257_j12910671692355_1_alg».proof.Proof.BodyValue
import Idealize.ShloMosaic.Lib.Pipeline.Value
import Idealize.ShloMosaic.Lib.ValueLayout
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.Interaction
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## Where each window's block sits, decided over the 256 grid points -/

/-- The embeddings' block moves along the batch axis with the point. -/
theorem at_embeddings : ∀ t : Fin cfg0.N,
    win0_0.index t (0 : Fin 3) = t.val ∧ win0_0.index t (1 : Fin 3) = 0 ∧ win0_0.index t (2 : Fin 3) = 0 :=
  (by decide +kernel : ∀ t : Fin grid0.N,
    win0_0.index t (0 : Fin 3) = t.val ∧ win0_0.index t (1 : Fin 3) = 0 ∧ win0_0.index t (2 : Fin 3) = 0)

/-- The weights' and biases' blocks are the whole arrays at every point. -/
theorem at_parameters : ∀ t : Fin cfg0.N,
    (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0) :=
  (by decide +kernel : ∀ t : Fin grid0.N,
    (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0))

/-- The output's block moves along the batch axis with the point. -/
theorem at_output : ∀ t : Fin cfg0.N,
    win0_5.index t (0 : Fin 3) = t.val ∧ win0_5.index t (1 : Fin 3) = 0 ∧ win0_5.index t (2 : Fin 3) = 0 :=
  (by decide +kernel : ∀ t : Fin grid0.N,
    win0_5.index t (0 : Fin 3) = t.val ∧ win0_5.index t (1 : Fin 3) = 0 ∧ win0_5.index t (2 : Fin 3) = 0)

/-- Batch entry `b` of point `t`'s block, among the 8192 entries. -/
abbrev entryOf (t : Fin cfg0.N) (b : Fin 32) : Fin 8192 :=
  ⟨t.val * 32 + b.val, by have := t.isLt; have hN : cfg0.N = 256 := N_0; have := b.isLt; omega⟩

/-! ## What the host prepared before the launch -/

/-- The first weight block's array: the first weight argument transposed (and converted, the identity here). -/
theorem prepared_weight₁ (c : Dev nD) :
    (V m c main_v1 : S64x64.Idx → EReal)
      = truncf (F := Ideal) .bf16 (transpose S64x64 [1, 0] (m ((c : Thread nD τ).loc main_arg1)) transposes_S64x64_S64x64_1_0) bitsLt_bf16_f32 := by
  dsimp only [Gen.V, Gen.hostOps0]; after_results

/-- The second weight block's array likewise. -/
theorem prepared_weight₂ (c : Dev nD) :
    (V m c main_v3 : S64x64.Idx → EReal)
      = truncf (F := Ideal) .bf16 (transpose S64x64 [1, 0] (m ((c : Thread nD τ).loc main_arg3)) transposes_S64x64_S64x64_1_0) bitsLt_bf16_f32 := by
  dsimp only [Gen.V, Gen.hostOps0]; after_results

/-- The first bias block's array: the first bias argument with two leading unit axes. -/
theorem prepared_bias₁ (c : Dev nD) :
    (V m c main_v4 : S1x1x64.Idx → EReal)
      = shapeCast S1x1x64 (m ((c : Thread nD τ).loc main_arg2) : S64.Idx → EReal) shapeCasts_S64_S1x1x64 := by
  dsimp only [Gen.V, Gen.hostOps0]; after_results; rfl

/-- The second bias block's array likewise. -/
theorem prepared_bias₂ (c : Dev nD) :
    (V m c main_v5 : S1x1x64.Idx → EReal)
      = shapeCast S1x1x64 (m ((c : Thread nD τ).loc main_arg4) : S64.Idx → EReal) shapeCasts_S64_S1x1x64 := by
  dsimp only [Gen.V, Gen.hostOps0]; after_results; rfl

/-- A vector given two leading unit axes reads, at (0, 0, o), the vector at `o`. -/
theorem lifted_apply (x : S64.Idx → EReal) (h : S64.ShapeCasts S1x1x64) (u v : Fin 1) (o : Fin 64) :
    shapeCast S1x1x64 x h (ix3 u v o) = x (ix1 o) := by
  refine shapeCast_apply x h _ (ix1 o) ?_
  rw [Shape.rowMajor_val_one, Shape.rowMajor_val_three]
  show o.val = (u.val * 1 + v.val) * 64 + o.val
  have := u.isLt; have := v.isLt; omega

/-! ## Each window's block at a point, read off the arguments -/

/-- The embeddings block of point `t` at (b, j, d) is the first argument at entry `32 · t + b`. -/
theorem embeddings_block (c : Dev nD) (t : Fin cfg0.N) (b : Fin 32) (j : Fin 201) (d : Fin 64) :
    (iblk m c 0 t : S32x201x64.Idx → EReal) (ix3 b j d)
      = (m ((c : Thread nD τ).loc main_arg0) : S8192x201x64.Idx → EReal) (ix3 (entryOf t b) j d) := by
  obtain ⟨e0, e1, e2⟩ := at_embeddings t
  unfold iblk
  rw [View.read_apply]
  show V m c main_arg0 _ = _
  rw [V_main_arg0 m c]
  refine congrArg (m ((c : Thread nD τ).loc main_arg0) : S8192x201x64.Idx → EReal) (funext fun a => Fin.ext ?_)
  match a with
  | ⟨0, _⟩ => show win0_0.index t (0 : Fin 3) * 32 + 1 * b.val = t.val * 32 + b.val; rw [e0]; omega
  | ⟨1, _⟩ => show win0_0.index t (1 : Fin 3) * 201 + 1 * j.val = j.val; rw [e1]; omega
  | ⟨2, _⟩ => show win0_0.index t (2 : Fin 3) * 64 + 1 * d.val = d.val; rw [e2]; omega

/-- The first weight block at (contracted k, output o) is the first weight argument at (o, k). -/
theorem weight₁_block (c : Dev nD) (t : Fin cfg0.N) (k o : Fin 64) :
    (iblk m c 1 t : S64x64.Idx → EReal) (ix2 k o)
      = (m ((c : Thread nD τ).loc main_arg1) : S64x64.Idx → EReal) (ix2 o k) := by
  obtain ⟨⟨e0, e1⟩, -, -, -⟩ := at_parameters t
  unfold iblk
  rw [View.read_apply]
  show (V m c main_v1 : S64x64.Idx → EReal) _ = _
  rw [prepared_weight₁ m c]
  refine Eq.trans (congrArg (truncf (F := Ideal) .bf16 (transpose S64x64 [1, 0] (m ((c : Thread nD τ).loc main_arg1)) transposes_S64x64_S64x64_1_0) bitsLt_bf16_f32)
    (funext fun a => Fin.ext ?_ : _ = ix2 k o)) (transpose_ix2_apply _ _ k o)
  match a with
  | ⟨0, _⟩ => show win0_1.index t (0 : Fin 2) * 64 + 1 * k.val = k.val; rw [e0]; omega
  | ⟨1, _⟩ => show win0_1.index t (1 : Fin 2) * 64 + 1 * o.val = o.val; rw [e1]; omega

/-- The second weight block likewise. -/
theorem weight₂_block (c : Dev nD) (t : Fin cfg0.N) (k o : Fin 64) :
    (iblk m c 3 t : S64x64.Idx → EReal) (ix2 k o)
      = (m ((c : Thread nD τ).loc main_arg3) : S64x64.Idx → EReal) (ix2 o k) := by
  obtain ⟨-, -, ⟨e0, e1⟩, -⟩ := at_parameters t
  unfold iblk
  rw [View.read_apply]
  show (V m c main_v3 : S64x64.Idx → EReal) _ = _
  rw [prepared_weight₂ m c]
  refine Eq.trans (congrArg (truncf (F := Ideal) .bf16 (transpose S64x64 [1, 0] (m ((c : Thread nD τ).loc main_arg3)) transposes_S64x64_S64x64_1_0) bitsLt_bf16_f32)
    (funext fun a => Fin.ext ?_ : _ = ix2 k o)) (transpose_ix2_apply _ _ k o)
  match a with
  | ⟨0, _⟩ => show win0_3.index t (0 : Fin 2) * 64 + 1 * k.val = k.val; rw [e0]; omega
  | ⟨1, _⟩ => show win0_3.index t (1 : Fin 2) * 64 + 1 * o.val = o.val; rw [e1]; omega

/-- The first bias block at (0, 0, o) is the first bias argument at `o`. -/
theorem bias₁_block (c : Dev nD) (t : Fin cfg0.N) (o : Fin 64) :
    (iblk m c 2 t : S1x1x64.Idx → EReal) (ix3 (0 : Fin 1) (0 : Fin 1) o)
      = (m ((c : Thread nD τ).loc main_arg2) : S64.Idx → EReal) (ix1 o) := by
  obtain ⟨-, ⟨e0, e1, e2⟩, -, -⟩ := at_parameters t
  unfold iblk
  rw [View.read_apply]
  show (V m c main_v4 : S1x1x64.Idx → EReal) _ = _
  rw [prepared_bias₁ m c]
  refine Eq.trans (congrArg (shapeCast S1x1x64 (m ((c : Thread nD τ).loc main_arg2) : S64.Idx → EReal) shapeCasts_S64_S1x1x64)
    (funext fun a => Fin.ext ?_ : _ = ix3 (0 : Fin 1) (0 : Fin 1) o)) (lifted_apply _ _ 0 0 o)
  match a with
  | ⟨0, _⟩ => show win0_2.index t (0 : Fin 3) * 1 + 1 * 0 = 0; rw [e0]
  | ⟨1, _⟩ => show win0_2.index t (1 : Fin 3) * 1 + 1 * 0 = 0; rw [e1]
  | ⟨2, _⟩ => show win0_2.index t (2 : Fin 3) * 64 + 1 * o.val = o.val; rw [e2]; omega

/-- The second bias block likewise. -/
theorem bias₂_block (c : Dev nD) (t : Fin cfg0.N) (o : Fin 64) :
    (iblk m c 4 t : S1x1x64.Idx → EReal) (ix3 (0 : Fin 1) (0 : Fin 1) o)
      = (m ((c : Thread nD τ).loc main_arg4) : S64.Idx → EReal) (ix1 o) := by
  obtain ⟨-, -, -, ⟨e0, e1, e2⟩⟩ := at_parameters t
  unfold iblk
  rw [View.read_apply]
  show (V m c main_v5 : S1x1x64.Idx → EReal) _ = _
  rw [prepared_bias₂ m c]
  refine Eq.trans (congrArg (shapeCast S1x1x64 (m ((c : Thread nD τ).loc main_arg4) : S64.Idx → EReal) shapeCasts_S64_S1x1x64)
    (funext fun a => Fin.ext ?_ : _ = ix3 (0 : Fin 1) (0 : Fin 1) o)) (lifted_apply _ _ 0 0 o)
  match a with
  | ⟨0, _⟩ => show win0_4.index t (0 : Fin 3) * 1 + 1 * 0 = 0; rw [e0]
  | ⟨1, _⟩ => show win0_4.index t (1 : Fin 3) * 1 + 1 * 0 = 0; rw [e1]
  | ⟨2, _⟩ => show win0_4.index t (2 : Fin 3) * 64 + 1 * o.val = o.val; rw [e2]; omega

/-! ## The whole array -/

/-- The layer of the five argument arrays as the kernel's memory holds them at launch. -/
abbrev result (c : Dev nD) : S8192x200x64.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of `result`. -/
theorem written_block (c : Dev nD) (t : Fin cfg0.N) :
    (dats m 0 c).flushed 5 t = ((cfg0.win 5).blk t).view.read (Elt Ideal) (result m c) := by
  obtain ⟨e0, e1, e2⟩ := at_output t
  rw [Value.flushed5]
  unfold out0_5
  rw [View.canon_unit_zero zeros3]
  simp only [View.ld_unit_zero (S := S32x201x64) zeros3, View.ld_unit_zero (S := S64x64) zeros2,
    View.ld_unit_zero (S := S1x1x64) zeros3]
  funext y
  obtain ⟨b, n, e, rfl⟩ : ∃ (b : Fin 32) (n : Fin 200) (e : Fin 64), y = ix3 b n e := ⟨y 0, y 1, y 2, eq_ix3 y⟩
  show k0_pay1 (F := Ideal) (iblk m c 0 t) (iblk m c 1 t) (iblk m c 2 t) (iblk m c 3 t) (iblk m c 4 t) (ix3 b n e)
    = result m c (((cfg0.win 5).blk t).view.emb (ix3 b n e))
  have hemb : ((cfg0.win 5).blk t).view.emb (ix3 b n e) = (ix3 (entryOf t b) n e : S8192x200x64.Idx) :=
    funext fun a => Fin.ext (by
      match a with
      | ⟨0, _⟩ => show win0_5.index t (0 : Fin 3) * 32 + 1 * b.val = t.val * 32 + b.val; rw [e0]; omega
      | ⟨1, _⟩ => show win0_5.index t (1 : Fin 3) * 200 + 1 * n.val = n.val; rw [e1]; omega
      | ⟨2, _⟩ => show win0_5.index t (2 : Fin 3) * 64 + 1 * e.val = e.val; rw [e2]; omega)
  rw [hemb]
  refine (BodyValue.payload_apply (iblk m c 0 t) (iblk m c 1 t) (iblk m c 2 t) (iblk m c 3 t) (iblk m c 4 t) b n e).trans ?_
  show _ = layerAt _ _ _ _ _ (entryOf t b) n e
  unfold layerAt
  exact out_congr (fun j d => embeddings_block m c t b j d) (fun o k => weight₁_block m c t k o)
    (fun o => bias₁_block m c t o) (fun o k => weight₂_block m c t k o) (fun o => bias₂_block m c t o) n e

/-- An index of the output array is in point `t`'s block iff each coordinate is in the block's range on its axis. -/
theorem mem_block (t : Fin cfg0.N) (i : S8192x200x64.Idx) :
    i ∈ ((cfg0.win 5).blk t).view.set ↔ ∀ a : Fin 3, win0_5.index t a * S32x200x64.size a ≤ (i a).val
      ∧ (i a).val < win0_5.index t a * S32x200x64.size a + S32x200x64.size a := by
  show i ∈ ((View.whole main_v6).slice (win0_5.rect t)).set ↔ _
  rw [View.set_slice_whole, Rect.mem_set_unit]
  exact Iff.rfl

/-- Every index of the output array is in the block of the point `(its batch entry) / 32`. -/
theorem covered (i : S8192x200x64.Idx) :
    ∃ t : Fin cfg0.N, (cfg0.win 5).flush t = true ∧ i ∈ ((cfg0.win 5).blk t).view.set := by
  have hN : cfg0.N = 256 := N_0
  have hi0 : (i 0).val < 8192 := (i 0).isLt
  have hi1 : (i 1).val < 200 := (i 1).isLt
  have hi2 : (i 2).val < 64 := (i 2).isLt
  have ht : (i 0).val / 32 < cfg0.N := by rw [hN]; omega
  refine ⟨⟨(i 0).val / 32, ht⟩, flush0_5 _, ?_⟩
  obtain ⟨e0, e1, e2⟩ := at_output ⟨(i 0).val / 32, ht⟩
  rw [mem_block]
  intro a
  match a with
  | ⟨0, _⟩ =>
    show win0_5.index ⟨(i 0).val / 32, ht⟩ (0 : Fin 3) * 32 ≤ (i 0).val
      ∧ (i 0).val < win0_5.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_5.index ⟨(i 0).val / 32, ht⟩ (1 : Fin 3) * 200 ≤ (i 1).val
      ∧ (i 1).val < win0_5.index ⟨(i 0).val / 32, ht⟩ (1 : Fin 3) * 200 + 200
    rw [e1]; omega
  | ⟨2, _⟩ =>
    show win0_5.index ⟨(i 0).val / 32, ht⟩ (2 : Fin 3) * 64 ≤ (i 2).val
      ∧ (i 2).val < win0_5.index ⟨(i 0).val / 32, ht⟩ (2 : Fin 3) * 64 + 64
    rw [e2]; omega

/-- THE OUTPUT ARRAY after the run is `result`. -/
theorem final (c : Dev nD) : (dats m 0 c).arrAt 5 cfg0.N = result m c :=
  (dats m 0 c).arrAt_eq_of_cover 5 (result m c) (fun t _ => written_block m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference program's result, read at one index, is the layer of `Interaction.lean` applied to that index's batch
  entry.

  The reference slices the user row and the 200 item rows out of the embeddings, multiplies them, takes the items'
  mean as a sum over the item axis divided by the count, scales the items by it, applies two `dot_general`s that
  contract the feature axis of the activations with the SECOND axis of a weight matrix (so the weight is read at
  (output feature, contracted feature)), adds the biases, and selects between the value and its multiple by the slope.
  Each stage below reads one of these operations at an index with explicit coordinates (batch entry `B`, item `n`,
  feature `d` or `e`) and identifies it with the corresponding stage of the layer. The only arithmetic fact used is that
  the sum's initial value, the float word zero, is the extended real `0`.
-/
import proofs.«158257_j12910671692355_1_alg».proof.Proof.Gen.ReferenceIdeal.Read
import proofs.«158257_j12910671692355_1_alg».proof.Proof.Interaction

noncomputable section

open scoped BigOperators

namespace Cert.ReferenceIdeal.RefValue

open Cert.ReferenceIdeal Cert.ReferenceIdeal.Read Idealize.ShloMosaic Idealize.ShloMosaic.ValueIdx Cert.Interaction

/-- Batch entry `B` of the embeddings, as a matrix of rows and features. -/
abbrev entry (x0 : (⟨S8192x201x64, .f32⟩ : BufTy).Contents (Elt Ideal)) (B : Fin 8192) : Fin 201 → Fin 64 → EReal :=
  fun j d => x0 (ix3 B j d)

/-- A weight matrix as the reference reads it: output feature first, contracted feature second. -/
abbrev weight (x : (⟨S64x64, .f32⟩ : BufTy).Contents (Elt Ideal)) : Fin 64 → Fin 64 → EReal := fun e k => x (ix2 e k)

/-- A bias vector by feature. -/
abbrev bias (x : (⟨S64, .f32⟩ : BufTy).Contents (Elt Ideal)) : Fin 64 → EReal := fun e => x (ix1 e)

variable (x0 : (⟨S8192x201x64, .f32⟩ : BufTy).Contents (Elt Ideal)) (x1 : (⟨S64x64, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal))

/-- The slice of the item rows at (B, n, d) is the embeddings at row `1 + n`. -/
theorem items_apply (B : Fin 8192) (n : Fin 200) (d : Fin 64) :
    val_main_v1 (F := Ideal) x0 (ix3 B n d) = entry x0 B (item n) d := by
  rw [val_main_v1_apply]
  exact congrArg x0 (funext fun a => match a with | ⟨0, _⟩ => rfl | ⟨1, _⟩ => rfl | ⟨2, _⟩ => rfl)

/-- The user row, sliced and broadcast over the items, at (B, n, d) is the embeddings at row `0`. -/
theorem user_apply (B : Fin 8192) (n : Fin 200) (d : Fin 64) :
    val_main_v2 (F := Ideal) x0 (ix3 B n d) = entry x0 B user d := by
  rw [val_main_v2_apply, val_main_v0_apply]
  exact congrArg x0 (funext fun a => match a with | ⟨0, _⟩ => rfl | ⟨1, _⟩ => rfl | ⟨2, _⟩ => rfl)

/-- The items' sum over the item axis, kept as a unit axis and divided by the count, is the mean. -/
theorem mean_apply (B : Fin 8192) (j : Fin 1) (d : Fin 64) :
    val_main_v7 (F := Ideal) x0 (ix3 B j d) = mean (entry x0 B) d := by
  have hs : ∀ k : Fin 200, val_main_v1 (F := Ideal) x0 (idx_main_v4 (idx_main_v5 (ix3 B j d)) k) = entry x0 B (item k) d :=
    fun k => by
      rw [val_main_v1_apply]
      exact congrArg x0 (funext fun a => match a with | ⟨0, _⟩ => rfl | ⟨1, _⟩ => rfl | ⟨2, _⟩ => rfl)
  rw [val_main_v7_apply, val_main_v5_apply, val_main_v4_apply, val_main_v6_apply, val_main_cst_0_apply, val_main_cst_apply]
  simp only [hs, Ideal.hostDivf_def, Ideal.ofBits_def, Ideal.ofBits_zero_f32, zero_add]
  rfl

/-- The items scaled by the broadcast mean. -/
theorem scaled_apply (B : Fin 8192) (n : Fin 200) (d : Fin 64) :
    val_main_v9 (F := Ideal) x0 (ix3 B n d) = scaled (entry x0 B) n d := by
  have e : idx_main_v8 (ix3 B n d) = ix3 B (0 : Fin 1) d :=
    funext fun a => match a with | ⟨0, _⟩ => rfl | ⟨1, _⟩ => rfl | ⟨2, _⟩ => rfl
  rw [val_main_v9_apply, val_main_v8_apply, e, mean_apply, items_apply]
  rfl

/-- The first `dot_general` plus the first bias. -/
theorem first_apply (B : Fin 8192) (n : Fin 200) (e : Fin 64) :
    val_main_v13 (F := Ideal) x0 x1 x2 (ix3 B n e) = first (entry x0 B) (weight x1) (bias x2) n e := by
  have hl : ∀ k : Fin 64, lidx_main_v10 (ix3 B n e) k = ix3 B n k :=
    fun k => funext fun a => match a with | ⟨0, _⟩ => rfl | ⟨1, _⟩ => rfl | ⟨2, _⟩ => rfl
  have hr : ∀ k : Fin 64, ridx_main_v10 (ix3 B n e) k = ix2 e k :=
    fun k => funext fun a => match a with | ⟨0, _⟩ => rfl | ⟨1, _⟩ => rfl
  have hb : idx_main_v11 (idx_main_v12 (ix3 B n e)) = ix1 e :=
    funext fun a => match a with | ⟨0, _⟩ => rfl
  rw [val_main_v13_apply, val_main_v10_apply, val_main_v12_apply, val_main_v11_apply, hb]
  simp only [hl, hr, scaled_apply]
  rfl

/-- The items plus their first-layer image. -/
theorem mixed_apply (B : Fin 8192) (n : Fin 200) (d : Fin 64) :
    val_main_v14 (F := Ideal) x0 x1 x2 (ix3 B n d) = mixed (entry x0 B) (weight x1) (bias x2) n d := by
  rw [val_main_v14_apply, items_apply, first_apply]
  rfl

/-- The second `dot_general` plus the second bias. -/
theorem second_apply (B : Fin 8192) (n : Fin 200) (e : Fin 64) :
    val_main_v18 (F := Ideal) x0 x1 x2 x3 x4 (ix3 B n e)
      = second (entry x0 B) (weight x1) (bias x2) (weight x3) (bias x4) n e := by
  have hl : ∀ k : Fin 64, lidx_main_v15 (ix3 B n e) k = ix3 B n k :=
    fun k => funext fun a => match a with | ⟨0, _⟩ => rfl | ⟨1, _⟩ => rfl | ⟨2, _⟩ => rfl
  have hr : ∀ k : Fin 64, ridx_main_v15 (ix3 B n e) k = ix2 e k :=
    fun k => funext fun a => match a with | ⟨0, _⟩ => rfl | ⟨1, _⟩ => rfl
  have hb : idx_main_v16 (idx_main_v17 (ix3 B n e)) = ix1 e :=
    funext fun a => match a with | ⟨0, _⟩ => rfl
  rw [val_main_v18_apply, val_main_v15_apply, val_main_v17_apply, val_main_v16_apply, hb]
  simp only [hl, hr, mixed_apply]
  rfl

/-- The user–item product plus the second layer. -/
theorem pre_apply (B : Fin 8192) (n : Fin 200) (e : Fin 64) :
    val_main_v19 (F := Ideal) x0 x1 x2 x3 x4 (ix3 B n e)
      = pre (entry x0 B) (weight x1) (bias x2) (weight x3) (bias x4) n e := by
  rw [val_main_v19_apply, val_main_v3_apply, user_apply, items_apply, second_apply]
  rfl

/-- THE REFERENCE'S RESULT at (B, n, e) is the layer's output for batch entry `B`. -/
theorem result_apply (B : Fin 8192) (n : Fin 200) (e : Fin 64) :
    val_main_v24 (F := Ideal) x0 x1 x2 x3 x4 (ix3 B n e)
      = out (entry x0 B) (weight x1) (bias x2) (weight x3) (bias x4) n e := by
  rw [val_main_v24_apply, val_main_v21_apply, val_main_v23_apply, val_main_v20_apply, val_main_v22_apply,
    val_main_cst_1_apply, val_main_cst_2_apply, pre_apply]
  rfl

/-- THE REFERENCE'S WHOLE RESULT is the layer of its five arguments, entry by entry. -/
theorem result_eq : val_main_v24 (F := Ideal) x0 x1 x2 x3 x4 = layer x0 x1 x2 x3 x4 := by
  funext i
  obtain ⟨B, n, e, rfl⟩ : ∃ (B : Fin 8192) (n : Fin 200) (e : Fin 64), i = ix3 B n e := ⟨i 0, i 1, i 2, eq_ix3 i⟩
  exact result_apply x0 x1 x2 x3 x4 B n e

end Cert.ReferenceIdeal.RefValue

end
-- ==== Proof.lean ====
/-
  The kernel and its reference compute the same layer on every batch entry, as extended reals.

  For each of 8192 batch entries — a user row and 200 item rows of 64 features — both programs form the user–item
  products, scale the items by their mean over the item axis (a sum divided by the float 200), pass them through a
  64 × 64 linear layer with bias, add the items back, pass the sum through a second linear layer with bias, add the
  user–item products, and apply the leaky rectifier with the float slope `0x3C23D70A`. The reference does this on whole
  arrays with two contractions against the weight matrices' second axis; the kernel does it on blocks of 32 entries,
  flattening (entry, item) into 6400 rows for two matrix products against weight blocks the host transposed beforehand,
  with the biases as 1 × 1 × 64 blocks. Read at the ideal instance both are, index by index, the one function `layer` of
  `Proof/Interaction.lean`: the same sums over the same index sets with the same factor order and the same float words, so
  no law of the extended reals beyond `0 + x = x` (the reference's sum starts from the float zero) is needed and the
  finiteness precondition is never opened.

  `Proof/RefValue.lean` reads the reference's result at an index; `Proof/BodyValue.lean` reads the kernel body's stored value
  at an index of a block; `Proof/ArrayValue.lean` places the blocks in the output array. Here the five claims are assembled:
  the three frames from the generated runs, the idealization (no rewrite was applied, so there is nothing to preserve), and
  the equality of the two results from memories that agree on the arguments.
-/
import proofs.«158257_j12910671692355_1_alg».proof.Defs
import proofs.«158257_j12910671692355_1_alg».proof.Proof.Gen.Kernel
import proofs.«158257_j12910671692355_1_alg».proof.Proof.Gen.Kernel.Frame
import proofs.«158257_j12910671692355_1_alg».proof.Proof.Gen.KernelIdeal
import proofs.«158257_j12910671692355_1_alg».proof.Proof.Gen.KernelIdeal.Frame
import proofs.«158257_j12910671692355_1_alg».proof.Proof.Gen.KernelIdeal.Value
import proofs.«158257_j12910671692355_1_alg».proof.Proof.Gen.ReferenceIdeal
import proofs.«158257_j12910671692355_1_alg».proof.Proof.Gen.ReferenceIdeal.Run
import proofs.«158257_j12910671692355_1_alg».proof.Proof.Gen.ReferenceIdeal.Read
import proofs.«158257_j12910671692355_1_alg».proof.Proof.Gen.Pre_finite_inputs
import proofs.«158257_j12910671692355_1_alg».proof.Proof.ArrayValue
import proofs.«158257_j12910671692355_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_kernel : Cert.frame_Kernel := fun m ρ _ => Cert.Kernel.Gen.frame m ρ

/-- So does the kernel read at the ideal instance. -/
theorem frame_ideal : Cert.frame_KernelIdeal := fun m ρ _ => Cert.KernelIdeal.Gen.frame m ρ

/-- The reference has no kernel launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: no rewrite, nothing to state. -/
theorem preserves : Cert.preserves_Kernel_KernelIdeal := trivial

/-- From memories agreeing on the five arguments, the kernel's result array and the reference's are both the layer of
    the arguments, entry by entry. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
